-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S1024x3 : Shape := ⟨2, ![1024, 3]⟩
abbrev S1024 : Shape := ⟨1, ![1024]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4096x3 .f32) (main_arg1 : FVec F S1024x3 .f32) (main_arg2 : FVec F S1024 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4096x3 : Shape := ⟨3, ![8, 4096, 3]⟩
abbrev S1024x3 : Shape := ⟨2, ![1024, 3]⟩
abbrev S1024 : Shape := ⟨1, ![1024]⟩
abbrev S32768x3 : Shape := ⟨2, ![32768, 3]⟩
abbrev S3x1024 : Shape := ⟨2, ![3, 1024]⟩
abbrev S_ : Shape := ⟨0, ![]⟩
abbrev S1x1024 : Shape := ⟨2, ![1, 1024]⟩
abbrev S32768x1024 : Shape := ⟨2, ![32768, 1024]⟩
abbrev S1024x1024 : Shape := ⟨2, ![1024, 1024]⟩
abbrev S1024x1 : Shape := ⟨2, ![1024, 1]⟩
abbrev S8x4096x1024 : Shape := ⟨3, ![8, 4096, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8x4096x3, .f32⟩
  | .hbm, ⟨1, _⟩ => ⟨S1024x3, .f32⟩
  | .hbm, ⟨2, _⟩ => ⟨S1024, .f32⟩
  | .hbm, ⟨3, _⟩ => ⟨S32768x3, .f32⟩
  | .hbm, ⟨4, _⟩ => ⟨S3x1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S32768x1024, .f32⟩
  | .hbm, ⟨11, _⟩ => ⟨S8x4096x1024, .f32⟩
  | .local _ .vmem, ⟨0, _⟩ => ⟨S1024x3, .f32⟩
  | .local _ .vmem, ⟨1, _⟩ => ⟨S1024x3, .f32⟩
  | .local _ .vmem, ⟨2, _⟩ => ⟨S3x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x3_S32768x3 : S8x4096x3.ShapeCasts S32768x3
  transposes_S1024x3_S3x1024_1_0 : S1024x3.Transposes [1, 0] S3x1024
  bcast_S_S1024 : S_.BroadcastsInDim S1024 (![] : Fin 0 → Fin S1024.rank)
  shapeCasts_S1024_S1x1024 : S1024.ShapeCasts S1x1024
  inb_S1024x3_S1024x1_0_0 : ∀ a, (![0, 0] : Fin 2 → Nat) a + S1024x1.size a ≤ S1024x3.size a
  h_S1024x1 : 0 < S1024x1.numel
  shapeCasts_S1024x1_S1024x1 : S1024x1.ShapeCasts S1024x1
  inb_S3x1024_S1x1024_0_0 : ∀ a, (![0, 0] : Fin 2 → Nat) a + S1x1024.size a ≤ S3x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x3_S1024x1_0_1 : ∀ a, (![0, 1] : Fin 2 → Nat) a + S1024x1.size a ≤ S1024x3.size a
  inb_S3x1024_S1x1024_1_0 : ∀ a, (![1, 0] : Fin 2 → Nat) a + S1x1024.size a ≤ S3x1024.size a
  inb_S1024x3_S1024x1_0_2 : ∀ a, (![0, 2] : Fin 2 → Nat) a + S1024x1.size a ≤ S1024x3.size a
  inb_S3x1024_S1x1024_2_0 : ∀ a, (![2, 0] : Fin 2 → Nat) a + S1x1024.size a ≤ S3x1024.size a
  inb_S1x1024_S1x1024_0_0 : ∀ a, (![0, 0] : Fin 2 → Nat) a + S1x1024.size a ≤ S1x1024.size a
  reduces_S1024x1024_S1024 : S1024x1024.Reduces [1] S1024
  shapeCasts_S1024_S1024x1 : S1024.ShapeCasts S1024x1
  inb_S1024x1024_S1024x1024_0_0 : ∀ a, (![0, 0] : Fin 2 → Nat) a + S1024x1024.size a ≤ S1024x1024.size a
  h_S1024x1024 : 0 < S1024x1024.numel
  shapeCasts_S32768x1024_S8x4096x1024 : S32768x1024.ShapeCasts S8x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S32768x3.size a
  hwx0_0 : ∀ i : grid0.Coords, EltTy.bits .f32 = 32 ∨ (Rect.block (s := S32768x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x1024.size a
  hwx0_1 : ∀ i : grid0.Coords, EltTy.bits .f32 = 32 ∨ (Rect.block (s := S3x1024) S3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

abbrev win0_0 : Pipeline.Window sig grid0 :=
  Pipeline.Window.ofSpec (Memref.whole main_v0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S1024x3 : Shape := ⟨2, ![1024, 3]⟩
abbrev S1024 : Shape := ⟨1, ![1024]⟩
abbrev S8x4096x1x3 : Shape := ⟨4, ![8, 4096, 1, 3]⟩
abbrev S1x1x1024x3 : Shape := ⟨4, ![1, 1, 1024, 3]⟩
abbrev S8x4096x1024x3 : Shape := ⟨4, ![8, 4096, 1024, 3]⟩
abbrev S1x1x1024x1 : Shape := ⟨4, ![1, 1, 1024, 1]⟩
abbrev S_ : Shape := ⟨0, ![]⟩
abbrev S8x4096x1024 : Shape := ⟨3, ![8, 4096, 1024]⟩
abbrev S8x4096 : Shape := ⟨2, ![8, 4096]⟩
abbrev S8x4096x1 : Shape := ⟨3, ![8, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S1024x3, .f32⟩
  | .hbm, ⟨2, _⟩ => ⟨S1024, .f32⟩
  | .hbm, ⟨3, _⟩ => ⟨S8x4096x1x3, .f32⟩
  | .hbm, ⟨4, _⟩ => ⟨S1x1x1024x3, .f32⟩
  | .hbm, ⟨5, _⟩ => ⟨S8x4096x1024x3, .f32⟩
  | .hbm, ⟨6, _⟩ => ⟨S8x4096x1024x3, .f32⟩
  | .hbm, ⟨7, _⟩ => ⟨S8x4096x1024x3, .f32⟩
  | .hbm, ⟨8, _⟩ => ⟨S1024, .f32⟩
  | .hbm, ⟨9, _⟩ => ⟨S1x1x1024x1, .f32⟩
  | .hbm, ⟨10, _⟩ => ⟨S8x4096x1024x3, .f32⟩
  | .hbm, ⟨11, _⟩ => ⟨S8x4096x1024x3, .f32⟩
  | .hbm, ⟨12, _⟩ => ⟨S8x4096x1024x3, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S8x4096x3_S8x4096x1x3_0_1_3 : S8x4096x3.BroadcastsInDim S8x4096x1x3 (![0, 1, 3] : Fin 3 → Fin S8x4096x1x3.rank)
  bcast_S1024x3_S1x1x1024x3_2_3 : S1024x3.BroadcastsInDim S1x1x1024x3 (![2, 3] : Fin 2 → Fin S1x1x1024x3.rank)
  bcast_S8x4096x1x3_S8x4096x1024x3_0_1_2_3 : S8x4096x1x3.BroadcastsInDim S8x4096x1024x3 (![0, 1, 2, 3] : Fin 4 → Fin S8x4096x1024x3.rank)
  bcast_S1x1x1024x3_S8x4096x1024x3_0_1_2_3 : S1x1x1024x3.BroadcastsInDim S8x4096x1024x3 (![0, 1, 2, 3] : Fin 4 → Fin S8x4096x1024x3.rank)
  bcast_S1024_S1x1x1024x1_2 : S1024.BroadcastsInDim S1x1x1024x1 (![2] : Fin 1 → Fin S1x1x1024x1.rank)
  bcast_S1x1x1024x1_S8x4096x1024x3_0_1_2_3 : S1x1x1024x1.BroadcastsInDim S8x4096x1024x3 (![0, 1, 2, 3] : Fin 4 → Fin S8x4096x1024x3.rank)
  reducesTo_S8x4096x1024x3_S8x4096x1024_d3 : S8x4096x1024x3.ReducesTo [3] S8x4096x1024
  h_S_ : 0 < S_.numel
  reducesTo_S8x4096x1024_S8x4096_d2 : S8x4096x1024.ReducesTo [2] S8x4096
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)

variable [Facts₀]

class Facts : Prop extends Facts₀ where

variable [Facts]
-- ==== Proof.FiniteInputs.lean ====
/-
  What the precondition gives: every entry of the three argument arrays is a real number.

  The precondition is the conjunction of three "all |a| < +∞" tests, one per array.  Its value 1 splits into
  the three tests; a conjunction over all entries that is 1 makes each entry's test 1; and an extended real a
  with max(a, −a) < +∞ is neither +∞ nor −∞, so it is a real.
-/
import proofs.«125963_j83330955477629_2_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

noncomputable section

namespace Cert.Rbf

open Idealize.ShloMosaic

/-- The f32 word 0x7F800000 is +∞. -/
theorem ofBits_pos_inf : Ideal.ofBits .f32 0x7F800000#32 = (⊤ : EReal) := by simp [Ideal.ofBits, Ideal.ieee]

/-- An extended real whose absolute value is below +∞ is a real. -/
theorem real_of_abs_lt_top (a : EReal)
    (h : FloatOps.cmpf (F := Ideal) (φ := .f32) .olt (FloatOps.hostAbsf (F := Ideal) (φ := .f32) a)
      (Ideal.ofBits .f32 0x7F800000#32) = 1#1) : ∃ r : ℝ, a = (r : EReal) := by
  rw [ofBits_pos_inf] at h
  induction a using EReal.rec with
  | bot => exact absurd h (by decide)
  | top => exact absurd h (by decide)
  | coe r => exact ⟨r, rfl⟩

instance : Subsingleton Cert.Pre_finite_inputs.S_.Idx := ⟨fun a b => funext fun d => d.elim0⟩

/-- Under the precondition each of the three argument arrays holds reals only. -/
theorem real_of_pre [Cert.Pre_finite_inputs.Facts]
    (X : FVec Ideal Cert.Pre_finite_inputs.S8x4096x3 .f32) (M : FVec Ideal Cert.Pre_finite_inputs.S1024x3 .f32)
    (L : FVec Ideal Cert.Pre_finite_inputs.S1024 .f32)
    (h : Cert.Pre_finite_inputs.fn (F := Ideal) X M L = fun _ => 1#1) :
    (∀ i, ∃ r : ℝ, X i = (r : EReal)) ∧ (∀ i, ∃ r : ℝ, M i = (r : EReal)) ∧ (∀ i, ∃ r : ℝ, L i = (r : EReal)) := by
  have h0 := congrFun h ValueIdx.ix0
  dsimp only [Cert.Pre_finite_inputs.fn] at h0
  change IntOp.andi (IntOp.andi _ _) _ = 1#1 at h0
  rw [IntOp.andi_eq_one, IntOp.andi_eq_one] at h0
  obtain ⟨⟨hx, hm⟩, hl⟩ := h0
  refine ⟨fun i => ?_, fun i => ?_, fun i => ?_⟩
  · exact real_of_abs_lt_top (X i) (Host.reduce_andi_all _ _ _ _ _ hx i)
  · exact real_of_abs_lt_top (M i) (Host.reduce_andi_all _ _ _ _ _ hm i)
  · exact real_of_abs_lt_top (L i) (Host.reduce_andi_all _ _ _ _ _ hl i)

end Cert.Rbf

end
-- ==== Proof.LibEReal.lean ====
/-
  General facts about extended reals, for programs read at exact (extended-real) arithmetic whose values are real numbers
  except for a −∞ a running maximum starts from.

  The operations on coerced reals are the coerced real operations: a finite sum (coe_sum), exp of a difference
  (exp_coe_sub), a quotient by a nonzero real (div_coe_coe), max (max_coe_coe). A maximum folded from −∞ over a nonempty
  finite family of reals is a real (fold_max_real), and max(−∞, c) = c (max_bot_coe). The rescaling factor of a first
  block, exp(−∞ − c), is 0 (exp_bot_sub). The f32 pattern 0xFF800000 is −∞ (ofBits_neg_inf).
-/
import Idealize.ShloMosaic.PureOps.Ideal
import Idealize.ShloMosaic.PureOps.Ideal.Laws

noncomputable section

open scoped BigOperators

namespace Cert.LibEReal

open Idealize.ShloMosaic

/-- A finite sum of coerced reals is the coerced sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- exp of a difference of reals. -/
theorem exp_coe_sub (a b : ℝ) : Ideal.exp ((a : EReal) - (b : EReal)) = ((Real.exp (a - b) : ℝ) : EReal) := by
  rw [← EReal.coe_sub]; rfl

/-- The first block's rescaling factor: exp(−∞ − c) = 0. -/
theorem exp_bot_sub (b : ℝ) : Ideal.exp ((⊥ : EReal) - (b : EReal)) = 0 := by
  rw [EReal.bot_sub]; rfl

/-- A quotient of reals by a nonzero real. -/
theorem div_coe_coe (a l : ℝ) (hl : l ≠ 0) : Ideal.div (a : EReal) (l : EReal) = ((a / l : ℝ) : EReal) := by
  rw [Ideal.div_coe hl, ← EReal.coe_mul]; congr 1; rw [mul_one_div]

/-- The f32 pattern of −∞ is the bottom element. -/
theorem ofBits_neg_inf : Ideal.ofBits .f32 0xFF800000#32 = (⊥ : EReal) := by simp [Ideal.ofBits, Ideal.ieee]

/-- A maximum folded from −∞ over a nonempty finite family of reals is a real. -/
theorem fold_max_real {ι : Type} [Fintype ι] [Nonempty ι] (f : ι → ℝ) :
    ∃ c : ℝ, (Finset.univ : Finset ι).fold max (⊥ : EReal) (fun k => ((f k : ℝ) : EReal)) = (c : EReal) := by
  have hlt : (Finset.univ : Finset ι).fold max (⊥ : EReal) (fun k => ((f k : ℝ) : EReal)) < ⊤ :=
    (Finset.fold_max_lt ⊤).mpr ⟨bot_lt_top, fun k _ => EReal.coe_lt_top _⟩
  have hgt : (⊥ : EReal) < (Finset.univ : Finset ι).fold max (⊥ : EReal) (fun k => ((f k : ℝ) : EReal)) :=
    (Finset.lt_fold_max ⊥).mpr (Or.inr ⟨Classical.arbitrary ι, Finset.mem_univ _, EReal.bot_lt_coe _⟩)
  exact ⟨_, (EReal.coe_toReal hlt.ne hgt.ne').symm⟩

/-- The running maximum after a block: from −∞ or from a real, against a real block maximum, it is a real. -/
theorem max_bot_coe (c : ℝ) : max (⊥ : EReal) (c : EReal) = (c : EReal) := max_bot_left _
theorem max_coe_coe (a b : ℝ) : max (a : EReal) (b : EReal) = ((max a b : ℝ) : EReal) := (EReal.coe_strictMono.monotone.map_max).symm

end Cert.LibEReal

end
-- ==== Proof.RbfLaw.lean ====
/-
  The law that joins the two arrangements of a Gaussian radial basis exponent.

  For a point x and a centre μ in three dimensions and a log-width l, one program scales each coordinate
  difference by σ = e^l before squaring and summing, Σ_d ((x_d − μ_d)/σ)²; the other sums the raw squares
  first and multiplies once by 1/σ² = e^(−2l).  Over the reals the two agree, because division by the
  nonzero e^l distributes over the sum and e^(−2l) = (e^l · e^l)⁻¹.  On the extended reals neither step is
  valid at an infinity, so the law is stated for coerced reals: this is where finiteness of the inputs is used.
  Also here: the f32 word of −2.0 denotes the real −2, and 0 − q = −q.
-/
import Idealize.ShloMosaic.PureOps.Ideal
import Idealize.ShloMosaic.PureOps.Ideal.Laws
import proofs.«125963_j83330955477629_2_alg».proof.Proof.LibEReal

noncomputable section

open scoped BigOperators

namespace Cert.Rbf

open Idealize.ShloMosaic

/-- The f32 word 0xC0000000 is −2. -/
theorem ofBits_neg_two : Ideal.ofBits .f32 0xC0000000#32 = ((-2 : ℝ) : EReal) := by
  simp [Ideal.ofBits, Ideal.ieee, -EReal.coe_mul]
  norm_num

/-- Scaling each of three real differences by e^l before squaring and summing is the sum of the raw squares
    times e^(−2l): both arrangements, written with the extended reals' operations on coerced reals. -/
theorem scaled_sq_sum (f g : Fin 3 → ℝ) (l : ℝ) :
    ∑ k : Fin 3, Ideal.div ((f k : EReal) - (g k : EReal)) (Ideal.exp (l : EReal))
        * Ideal.div ((f k : EReal) - (g k : EReal)) (Ideal.exp (l : EReal))
      = ((((f 0 : EReal) - (g 0 : EReal)) * ((f 0 : EReal) - (g 0 : EReal))
            + ((f 1 : EReal) - (g 1 : EReal)) * ((f 1 : EReal) - (g 1 : EReal)))
          + ((f 2 : EReal) - (g 2 : EReal)) * ((f 2 : EReal) - (g 2 : EReal)))
        * Ideal.exp (((-2 : ℝ) : EReal) * (l : EReal)) := by
  have he : Real.exp l ≠ 0 := Real.exp_ne_zero l
  simp only [Fin.sum_univ_three, ← EReal.coe_sub, ← EReal.coe_mul, Ideal.exp_coe,
    Cert.LibEReal.div_coe_coe _ _ he, ← EReal.coe_add]
  congr 1
  rw [show (-2 : ℝ) * l = -(l + l) by ring, Real.exp_neg, Real.exp_add]
  field_simp

end Cert.Rbf

end
-- ==== Proof.RbfSpec.lean ====
/-
  The normalized Gaussian radial basis layer as one function of its three argument arrays, index by index.

  For a batch b, a point s and a centre o the exponent q(b, s, o) is the squared distance of the point
  x[b, s, :] from the centre μ[o, :] measured in units of the width σ[o] = e^(l[o]); the layer's value is
  e^(−q(b, s, o)) divided by the sum over all centres o' of e^(−q(b, s, o')).
  The exponent has two arrangements: scaled — Σ_d ((x_d − μ_d)/σ)² — and factored — (Σ_d (x_d − μ_d)²)·e^(−2l).
  When every entry of the arrays is a real they are equal (the law of squared scaled differences), so the
  two normalized layers are one function.
-/
import Idealize.ShloMosaic.PureOps.Ideal
import Idealize.ShloMosaic.Lib.ValueIdx
import proofs.«125963_j83330955477629_2_alg».proof.Proof.RbfLaw

noncomputable section

open scoped BigOperators

namespace Cert.Rbf

open Idealize.ShloMosaic Idealize.ShloMosaic.ValueIdx

/-- The points x : [8, 4096, 3], the centres μ : [1024, 3], the log-widths l : [1024], the result : [8, 4096, 1024]. -/
abbrev SX : Shape := ⟨3, ![8, 4096, 3]⟩
abbrev SM : Shape := ⟨2, ![1024, 3]⟩
abbrev SL : Shape := ⟨1, ![1024]⟩
abbrev SO : Shape := ⟨3, ![8, 4096, 1024]⟩

/-- e^(−q) normalized over the centres. -/
def normalize (q : Fin 8 → Fin 4096 → Fin 1024 → EReal) : SO.Idx → EReal :=
  fun i => Ideal.div (Ideal.exp (-(q (i 0) (i 1) (i 2)))) (∑ o : Fin 1024, Ideal.exp (-(q (i 0) (i 1) o)))

/-- The exponent with each coordinate difference scaled by the width before squaring. -/
def expoScaled (X : SX.Idx → EReal) (M : SM.Idx → EReal) (L : SL.Idx → EReal) (b : Fin 8) (s : Fin 4096) (o : Fin 1024) : EReal :=
  ∑ k : Fin 3, Ideal.div (X (ix3 b s k) - M (ix2 o k)) (Ideal.exp (L (ix1 o)))
    * Ideal.div (X (ix3 b s k) - M (ix2 o k)) (Ideal.exp (L (ix1 o)))

/-- The exponent with the raw squares summed first and the width's factor e^(−2l) applied once. -/
def expoFactored (X : SX.Idx → EReal) (M : SM.Idx → EReal) (L : SL.Idx → EReal) (b : Fin 8) (s : Fin 4096) (o : Fin 1024) : EReal :=
  (((X (ix3 b s (0 : Fin 3)) - M (ix2 o (0 : Fin 3))) * (X (ix3 b s (0 : Fin 3)) - M (ix2 o (0 : Fin 3)))
      + (X (ix3 b s (1 : Fin 3)) - M (ix2 o (1 : Fin 3))) * (X (ix3 b s (1 : Fin 3)) - M (ix2 o (1 : Fin 3))))
    + (X (ix3 b s (2 : Fin 3)) - M (ix2 o (2 : Fin 3))) * (X (ix3 b s (2 : Fin 3)) - M (ix2 o (2 : Fin 3))))
  * Ideal.exp (((-2 : ℝ) : EReal) * L (ix1 o))

/-- On arrays of reals the two arrangements of the exponent agree. -/
theorem expoFactored_eq_expoScaled (X : SX.Idx → EReal) (M : SM.Idx → EReal) (L : SL.Idx → EReal)
    (hX : ∀ i, ∃ r : ℝ, X i = (r : EReal)) (hM : ∀ i, ∃ r : ℝ, M i = (r : EReal)) (hL : ∀ i, ∃ r : ℝ, L i = (r : EReal)) :
    expoFactored X M L = expoScaled X M L := by
  choose xr hxr using hX
  choose mr hmr using hM
  choose lr hlr using hL
  funext b s o
  unfold expoFactored expoScaled
  simp only [hxr, hmr, hlr]
  exact (scaled_sq_sum (fun k => xr (ix3 b s k)) (fun k => mr (ix2 o k)) (lr (ix1 o))).symm

/-- So on arrays of reals the two normalized layers are one function. -/
theorem normalize_factored_eq_scaled (X : SX.Idx → EReal) (M : SM.Idx → EReal) (L : SL.Idx → EReal)
    (hX : ∀ i, ∃ r : ℝ, X i = (r : EReal)) (hM : ∀ i, ∃ r : ℝ, M i = (r : EReal)) (hL : ∀ i, ∃ r : ℝ, L i = (r : EReal)) :
    normalize (expoFactored X M L) = normalize (expoScaled X M L) := by
  rw [expoFactored_eq_expoScaled X M L hX hM hL]

end Cert.Rbf

end
-- ==== Proof.RefRead.lean ====
/-
  The reference read at an index: its result at (b, s, o) is the normalized layer with the scaled exponent.

  The reference broadcasts the points and the centres to [8, 4096, 1024, 3], divides each coordinate difference
  by the broadcast width e^(l[o]), squares, sums over the last axis from 0, negates, exponentiates, sums over the
  centres from 0 and divides.  Each broadcast reads its operand at the coordinates it keeps, so at (b, s, o, k)
  the scaled difference is (x[b, s, k] − μ[o, k]) / e^(l[o]); the two sums' initial zeros drop out.
-/
import proofs.«125963_j83330955477629_2_alg».proof.Proof.Gen.ReferenceIdeal.Read
import proofs.«125963_j83330955477629_2_alg».proof.Proof.RbfSpec

noncomputable section

open scoped BigOperators

namespace Cert.Rbf.Ref

open Cert.ReferenceIdeal Cert.ReferenceIdeal.Gen Cert.ReferenceIdeal.Read
open Idealize.ShloMosaic Idealize.ShloMosaic.ValueIdx

variable (X : FVec Ideal S8x4096x3 .f32) (M : FVec Ideal S1024x3 .f32) (L : FVec Ideal S1024 .f32)

/-- The point's entry the scaled difference at (b, s, o, k) reads. -/
theorem idx_x (b : Fin 8) (s : Fin 4096) (o : Fin 1024) (k : Fin 3) :
    idx_main_v0 (idx_main_v2 (idx_main_v10 (ix3 b s o) k)) = ix3 b s k :=
  funext fun a => Fin.ext (by match a with | ⟨0, _⟩ => rfl | ⟨1, _⟩ => rfl | ⟨2, _⟩ => rfl)

/-- The centre's entry it reads. -/
theorem idx_m (b : Fin 8) (s : Fin 4096) (o : Fin 1024) (k : Fin 3) :
    idx_main_v1 (idx_main_v3 (idx_main_v10 (ix3 b s o) k)) = ix2 o k :=
  funext fun a => Fin.ext (by match a with | ⟨0, _⟩ => rfl | ⟨1, _⟩ => rfl)

/-- The log-width it reads. -/
theorem idx_l (b : Fin 8) (s : Fin 4096) (o : Fin 1024) (k : Fin 3) :
    idx_main_v6 (idx_main_v7 (idx_main_v10 (ix3 b s o) k)) = ix1 o :=
  funext fun a => Fin.ext (by match a with | ⟨0, _⟩ => rfl)

/-- The entries of row (b, s) the normalizing sum at (b, s, o) runs over. -/
theorem idx_row (b : Fin 8) (s : Fin 4096) (o o' : Fin 1024) :
    idx_main_v13 (idx_main_v14 (idx_main_v15 (ix3 b s o))) o' = ix3 b s o' :=
  funext fun a => Fin.ext (by match a with | ⟨0, _⟩ => rfl | ⟨1, _⟩ => rfl | ⟨2, _⟩ => rfl)

/-- The summed squares of the scaled differences at (b, s, o): the scaled exponent. -/
theorem expo_at (b : Fin 8) (s : Fin 4096) (o : Fin 1024) :
    val_main_v10 (F := Ideal) X M L (ix3 b s o) = expoScaled X M L b s o := by
  rw [val_main_v10_apply]
  simp only [val_main_v9_apply, val_main_v8_apply, val_main_v7_apply, val_main_v6_apply, val_main_v5_apply,
    val_main_v4_apply, val_main_v3_apply, val_main_v2_apply, val_main_v1_apply, val_main_v0_apply, val_main_cst_apply,
    idx_x, idx_m, idx_l, Ideal.hostDivf_def, Ideal.hostUnary_exp_def, Ideal.mulf_def, Ideal.subf_def, Ideal.ofBits_def,
    Ideal.ofBits_zero_f32, zero_add]
  rfl

/-- The unnormalized value at (b, s, o): e to the minus the scaled exponent. -/
theorem weight_at (b : Fin 8) (s : Fin 4096) (o : Fin 1024) :
    val_main_v12 (F := Ideal) X M L (ix3 b s o) = Ideal.exp (-(expoScaled X M L b s o)) := by
  rw [val_main_v12_apply, val_main_v11_apply, expo_at]
  rfl

/-- THE REFERENCE AT AN INDEX: the normalized layer with the scaled exponent. -/
theorem result_at (b : Fin 8) (s : Fin 4096) (o : Fin 1024) :
    val_main_v16 (F := Ideal) X M L (ix3 b s o) = normalize (expoScaled X M L) (ix3 b s o) := by
  rw [val_main_v16_apply, val_main_v15_apply, val_main_v14_apply, val_main_v13_apply, weight_at]
  simp only [idx_row, weight_at, val_main_cst_0_apply, Ideal.ofBits_def, Ideal.ofBits_zero_f32, zero_add, Ideal.hostDivf_def]
  rfl

/-- The reference's whole result is the normalized layer with the scaled exponent. -/
theorem result_eq : val_main_v16 (F := Ideal) X M L = normalize (expoScaled X M L) := by
  funext i
  obtain ⟨b, s, o, rfl⟩ : ∃ (b : Fin 8) (s : Fin 4096) (o : Fin 1024), i = ix3 b s o := ⟨i 0, i 1, i 2, eq_ix3 i⟩
  exact result_at X M L b s o

end Cert.Rbf.Ref

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KernelBody.lean ====
/-
  The kernel body's result at one element of its [1024, 1024] output block.

  The body reads the three columns of its block of points (each [1024, 1]), the three rows of the transposed
  centres (each [1, 1024]) and the row of width factors ([1, 1024]).  For row p and centre q it forms the raw
  squared distance — the three squared coordinate differences added to 0 in order —, multiplies by the width
  factor of q, takes e^(0 − ·), and divides by the sum over the row's 1024 centres.
  Column and row broadcasts read their operand's one column or row; the row sum with kept dimension is a sum over
  the centre coordinate; so at (p, q) the result is the block's weight at (p, q) over the row's total weight.
-/
import proofs.«125963_j83330955477629_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout
import proofs.«125963_j83330955477629_2_alg».proof.Proof.LibKeepdims

noncomputable section

open scoped BigOperators

namespace Cert.Rbf.Body

open Cert.KernelIdeal Cert.KernelIdeal.Gen
open Idealize.ShloMosaic Idealize.ShloMosaic.ValueIdx

variable (c0 c1 c2 : Vec Ideal S1024x1 .f32) (r0 r1 r2 w : Vec Ideal S1x1024 .f32)

/-- The block's unnormalized weight at row p and centre q: e to the minus (raw squared distance times width factor). -/
def weight (p q : Fin 1024) : EReal :=
  Ideal.exp (-((((c0 (ix2 p (0 : Fin 1)) - r0 (ix2 (0 : Fin 1) q)) * (c0 (ix2 p (0 : Fin 1)) - r0 (ix2 (0 : Fin 1) q))
        + (c1 (ix2 p (0 : Fin 1)) - r1 (ix2 (0 : Fin 1) q)) * (c1 (ix2 p (0 : Fin 1)) - r1 (ix2 (0 : Fin 1) q)))
      + (c2 (ix2 p (0 : Fin 1)) - r2 (ix2 (0 : Fin 1) q)) * (c2 (ix2 p (0 : Fin 1)) - r2 (ix2 (0 : Fin 1) q)))
    * w (ix2 (0 : Fin 1) q)))

/-- The body's exponentials as one [1024, 1024] vector of its loads. -/
def weights : FVec Ideal S1024x1024 .f32 :=
  exp (subf (broadcast S1024x1024 (Scalar.ofBits .f32 0x00000000#32))
    (mulf
      (addf (addf (addf (broadcast S1024x1024 (Scalar.ofBits .f32 0x00000000#32))
          (mulf (subf (broadcastTo S1024x1024 (shapeCast S1024x1 c0 shapeCasts_S1024x1_S1024x1) broadcasts_S1024x1_S1024x1024)
                      (broadcastTo S1024x1024 (shapeCast S1x1024 r0 shapeCasts_S1x1024_S1x1024) broadcasts_S1x1024_S1024x1024))
                (subf (broadcastTo S1024x1024 (shapeCast S1024x1 c0 shapeCasts_S1024x1_S1024x1) broadcasts_S1024x1_S1024x1024)
                      (broadcastTo S1024x1024 (shapeCast S1x1024 r0 shapeCasts_S1x1024_S1x1024) broadcasts_S1x1024_S1024x1024))))
          (mulf (subf (broadcastTo S1024x1024 (shapeCast S1024x1 c1 shapeCasts_S1024x1_S1024x1) broadcasts_S1024x1_S1024x1024)
                      (broadcastTo S1024x1024 (shapeCast S1x1024 r1 shapeCasts_S1x1024_S1x1024) broadcasts_S1x1024_S1024x1024))
                (subf (broadcastTo S1024x1024 (shapeCast S1024x1 c1 shapeCasts_S1024x1_S1024x1) broadcasts_S1024x1_S1024x1024)
                      (broadcastTo S1024x1024 (shapeCast S1x1024 r1 shapeCasts_S1x1024_S1x1024) broadcasts_S1x1024_S1024x1024))))
          (mulf (subf (broadcastTo S1024x1024 (shapeCast S1024x1 c2 shapeCasts_S1024x1_S1024x1) broadcasts_S1024x1_S1024x1024)
                      (broadcastTo S1024x1024 (shapeCast S1x1024 r2 shapeCasts_S1x1024_S1x1024) broadcasts_S1x1024_S1024x1024))
                (subf (broadcastTo S1024x1024 (shapeCast S1024x1 c2 shapeCasts_S1024x1_S1024x1) broadcasts_S1024x1_S1024x1024)
                      (broadcastTo S1024x1024 (shapeCast S1x1024 r2 shapeCasts_S1x1024_S1x1024) broadcasts_S1x1024_S1024x1024))))
      (broadcastTo S1024x1024 (shapeCast S1x1024 w shapeCasts_S1x1024_S1x1024) broadcasts_S1x1024_S1024x1024)))

/-- The payload is the exponentials divided by their row sums, kept as a column and broadcast back. -/
theorem pay_eq : k0_pay1 (F := Ideal) c0 r0 c1 r1 c2 r2 w
    = divf (weights c0 c1 c2 r0 r1 r2 w)
        (broadcastTo S1024x1024
          (shapeCast S1024x1 (multiReduction .add [1] S1024 (weights c0 c1 c2 r0 r1 r2 w) 0x00000000#32 reduces_S1024x1024_S1024 (.inl rfl) rfl)
            shapeCasts_S1024_S1024x1)
          broadcasts_S1024x1_S1024x1024) := rfl

/-- The exponentials at (p, q). -/
theorem weights_at (p q : Fin 1024) : weights c0 c1 c2 r0 r1 r2 w (ix2 p q) = weight c0 c1 c2 r0 r1 r2 w p q := by
  unfold weights weight
  simp only [Idealize.ShloMosaic.exp, subf, mulf, addf, broadcast, shapeCast_self,
    Cert.LibKeepdims.broadcastTo_a1_ab_apply, ValueIdx.broadcastTo_1b_ab_apply,
    Ideal.exp_def, Ideal.subf_def, Ideal.mulf_def, Ideal.addf_def]
  show Ideal.exp (Ideal.ofBits .f32 0x00000000#32 - _) = _
  rw [Ideal.ofBits_zero_f32, zero_sub]
  show Ideal.exp (-((((Ideal.ofBits .f32 0x00000000#32 + _) + _) + _) * _)) = _
  rw [Ideal.ofBits_zero_f32, zero_add]

/-- The row sum at row p: the sum of the row's weights. -/
theorem rowsum_at (hacc : (0x00000000#32 : BitVec 32) = 0x00000000#32) (p : Fin 1024) :
    multiReduction .add [1] S1024 (weights c0 c1 c2 r0 r1 r2 w) 0x00000000#32 reduces_S1024x1024_S1024 (.inl rfl) hacc (ix1 p)
      = ∑ k : Fin 1024, weight c0 c1 c2 r0 r1 r2 w p k := by
  refine (Ideal.multiReduction_add_single (weights c0 c1 c2 r0 r1 r2 w) 0x00000000#32 reduces_S1024x1024_S1024 (.inl rfl) hacc (ix1 p)).trans ?_
  refine Finset.sum_congr rfl fun k _ => ?_
  refine Eq.trans (congrArg (weights c0 c1 c2 r0 r1 r2 w) ?_) (weights_at c0 c1 c2 r0 r1 r2 w p k)
  exact funext fun a => Fin.ext (by match a with | ⟨0, _⟩ => rfl | ⟨1, _⟩ => rfl)

/-- THE PAYLOAD AT (p, q): the weight there over the row's total weight. -/
theorem pay_at (p q : Fin 1024) :
    k0_pay1 (F := Ideal) c0 r0 c1 r1 c2 r2 w (ix2 p q)
      = Ideal.div (weight c0 c1 c2 r0 r1 r2 w p q) (∑ k : Fin 1024, weight c0 c1 c2 r0 r1 r2 w p k) := by
  rw [pay_eq]
  show Ideal.div (weights c0 c1 c2 r0 r1 r2 w (ix2 p q)) (broadcastTo S1024x1024 _ broadcasts_S1024x1_S1024x1024 (ix2 p q)) = _
  rw [weights_at, Cert.LibKeepdims.broadcastTo_a1_ab_apply, Cert.LibKeepdims.shapeCast_a_a1_apply, rowsum_at]

end Cert.Rbf.Body

end
-- ==== Proof.KernelArray.lean ====
/-
  From blocks to the array: after the region the [32768, 1024] output array is the flattened layer.

  Grid point t handles rows t·1024 … t·1024 + 1023: its block of points is those rows of the flattened points,
  the transposed centres and the width factors are read whole at every point, and its output block is those rows
  of the output.  So what point t writes back is block t of ONE function of the arrays the region finds — for row r
  and centre q, the weight e^(−(Σ_d (x[r, d] − μᵀ[d, q])²)·f[q]) over the row's total weight — and since the 32
  blocks tile the array, the array ends holding that function.
-/
import proofs.«125963_j83330955477629_2_alg».proof.Proof.Gen.KernelIdeal.Frame
import proofs.«125963_j83330955477629_2_alg».proof.Proof.KernelBody
import Idealize.ShloMosaic.Lib.Pipeline.Value
import Idealize.ShloMosaic.Lib.ValueIdx

noncomputable section

open scoped BigOperators

namespace Cert.Rbf.Arr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The flattened layer as a function of the arrays the region finds -/

/-- The weight of flattened row r at centre q. -/
def wt (A0 : S32768x3.Idx → EReal) (A1 : S3x1024.Idx → EReal) (A2 : S1x1024.Idx → EReal) (r : Fin 32768) (q : Fin 1024) : EReal :=
  Ideal.exp (-((((A0 (ix2 r (0 : Fin 3)) - A1 (ix2 (0 : Fin 3) q)) * (A0 (ix2 r (0 : Fin 3)) - A1 (ix2 (0 : Fin 3) q))
        + (A0 (ix2 r (1 : Fin 3)) - A1 (ix2 (1 : Fin 3) q)) * (A0 (ix2 r (1 : Fin 3)) - A1 (ix2 (1 : Fin 3) q)))
      + (A0 (ix2 r (2 : Fin 3)) - A1 (ix2 (2 : Fin 3) q)) * (A0 (ix2 r (2 : Fin 3)) - A1 (ix2 (2 : Fin 3) q)))
    * A2 (ix2 (0 : Fin 1) q)))

/-- The flattened layer: each weight over its row's total. -/
def flat (A0 : S32768x3.Idx → EReal) (A1 : S3x1024.Idx → EReal) (A2 : S1x1024.Idx → EReal) : S32768x1024.Idx → EReal :=
  fun i => Ideal.div (wt A0 A1 A2 (i 0) (i 1)) (∑ k : Fin 1024, wt A0 A1 A2 (i 0) k)

/-! ## One block, over plain vectors -/

/-- A load through a rectangle reads the contents where the rectangle places the index. -/
theorem ld_at {Val : EltTy → Type} {S : Shape} {e : EltTy} (X : S.Idx → Val e) (r : Rect S) (y : r.shape.Idx) (i : S.Idx)
    (h : ∀ a, (i a).val = r.off a + r.stride a * (y a).val) : View.ld X r y = X i :=
  congrArg X (funext fun a => Fin.ext (h a).symm)

/-- The body's weight at (p, q), over blocks that are rows `r p` of the points array and the whole of the other two, is the
    flattened layer's weight at row `r p`. -/
theorem weight_block (A0 : S32768x3.Idx → EReal) (A1 : S3x1024.Idx → EReal) (A2 : S1x1024.Idx → EReal)
    (B0 : Vec Ideal S1024x3 .f32) (B1 : Vec Ideal S3x1024 .f32) (B2 : Vec Ideal S1x1024 .f32) (r : Fin 1024 → Fin 32768)
    (h0 : ∀ (p : Fin 1024) (k : Fin 3), B0 (ix2 p k) = A0 (ix2 (r p) k))
    (h1 : ∀ (k : Fin 3) (q : Fin 1024), B1 (ix2 k q) = A1 (ix2 k q))
    (h2 : ∀ q : Fin 1024, B2 (ix2 (0 : Fin 1) q) = A2 (ix2 (0 : Fin 1) q)) (p q : Fin 1024) :
    Body.weight (View.ld B0 r0_0) (View.ld B0 r0_2) (View.ld B0 r0_4) (View.ld B1 r0_1) (View.ld B1 r0_3) (View.ld B1 r0_5)
        (View.ld B2 r0_6) p q = wt A0 A1 A2 (r p) q := by
  have c0 : View.ld B0 r0_0 (ix2 p (0 : Fin 1)) = B0 (ix2 p (0 : Fin 3)) := ld_at B0 r0_0 _ _ fun a => by
    match a with
    | ⟨0, _⟩ => show p.val = 0 + 1 * p.val; omega
    | ⟨1, _⟩ => rfl
  have c1 : View.ld B0 r0_2 (ix2 p (0 : Fin 1)) = B0 (ix2 p (1 : Fin 3)) := ld_at B0 r0_2 _ _ fun a => by
    match a with
    | ⟨0, _⟩ => show p.val = 0 + 1 * p.val; omega
    | ⟨1, _⟩ => rfl
  have c2 : View.ld B0 r0_4 (ix2 p (0 : Fin 1)) = B0 (ix2 p (2 : Fin 3)) := ld_at B0 r0_4 _ _ fun a => by
    match a with
    | ⟨0, _⟩ => show p.val = 0 + 1 * p.val; omega
    | ⟨1, _⟩ => rfl
  have d0 : View.ld B1 r0_1 (ix2 (0 : Fin 1) q) = B1 (ix2 (0 : Fin 3) q) := ld_at B1 r0_1 _ _ fun a => by
    match a with
    | ⟨0, _⟩ => rfl
    | ⟨1, _⟩ => show q.val = 0 + 1 * q.val; omega
  have d1 : View.ld B1 r0_3 (ix2 (0 : Fin 1) q) = B1 (ix2 (1 : Fin 3) q) := ld_at B1 r0_3 _ _ fun a => by
    match a with
    | ⟨0, _⟩ => rfl
    | ⟨1, _⟩ => show q.val = 0 + 1 * q.val; omega
  have d2 : View.ld B1 r0_5 (ix2 (0 : Fin 1) q) = B1 (ix2 (2 : Fin 3) q) := ld_at B1 r0_5 _ _ fun a => by
    match a with
    | ⟨0, _⟩ => rfl
    | ⟨1, _⟩ => show q.val = 0 + 1 * q.val; omega
  have f0 : View.ld B2 r0_6 (ix2 (0 : Fin 1) q) = B2 (ix2 (0 : Fin 1) q) := ld_at B2 r0_6 _ _ fun a => by
    match a with
    | ⟨0, _⟩ => rfl
    | ⟨1, _⟩ => show q.val = 0 + 1 * q.val; omega
  unfold Body.weight wt
  rw [c0, c1, c2, d0, d1, d2, f0, h0, h0, h0, h1, h1, h1, h2]

/-! ## The windows' index maps, and each block read off its array -/

theorem hz : (![0, 0] : Fin 2 → Nat) = fun _ => 0 := funext fun a => by fin_cases a <;> rfl

/-- The printed index maps, decided over the grid: the points' and the output's blocks are block t along the rows, the
    other two windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_32 (t : Fin cfg0.N) : t.val < 32 := by
  have h : t.val < grid0.N := t.isLt
  rw [N_0] at h
  exact h

/-- The array row under row p of point t's blocks. -/
def rowOf (t : Fin cfg0.N) (p : Fin 1024) : Fin 32768 := ⟨t.val * 1024 + p.val, by have := lt_32 t; omega⟩

variable (m : (ℓ : Loc nD τ sig) → Buf (Elt Ideal) ℓ)

/-- Point t's block of points is rows t·1024 … of the flattened points. -/
theorem blk0_at (c : Dev nD) (t : Fin cfg0.N) (p : Fin 1024) (k : Fin 3) :
    iblk m c 0 t (ix2 p k) = V m c main_v0 (ix2 (rowOf t p) k) := by
  obtain ⟨e00, e01, -⟩ := idx_facts t
  show V m c main_v0 (((cfg0.win 0).blk t).view.emb (ix2 p k)) = V m c main_v0 (ix2 (rowOf t p) k)
  refine congrArg (V m c main_v0) (funext fun a => Fin.ext ?_)
  match a with
  | ⟨0, _⟩ => show win0_0.index t (0 : Fin 2) * 1024 + 1 * p.val = t.val * 1024 + p.val; omega
  | ⟨1, _⟩ => show win0_0.index t (1 : Fin 2) * 3 + 1 * k.val = k.val; omega

/-- Its block of the transposed centres is the whole array. -/
theorem blk1_at (c : Dev nD) (t : Fin cfg0.N) (k : Fin 3) (q : Fin 1024) :
    iblk m c 1 t (ix2 k q) = V m c main_v1 (ix2 k q) := by
  obtain ⟨-, -, e10, e11, -⟩ := idx_facts t
  show V m c main_v1 (((cfg0.win 1).blk t).view.emb (ix2 k q)) = V m c main_v1 (ix2 k q)
  refine congrArg (V m c main_v1) (funext fun a => Fin.ext ?_)
  match a with
  | ⟨0, _⟩ => show win0_1.index t (0 : Fin 2) * 3 + 1 * k.val = k.val; omega
  | ⟨1, _⟩ => show win0_1.index t (1 : Fin 2) * 1024 + 1 * q.val = q.val; omega

/-- Its block of the width factors is the whole row. -/
theorem blk2_at (c : Dev nD) (t : Fin cfg0.N) (q : Fin 1024) :
    iblk m c 2 t (ix2 (0 : Fin 1) q) = V m c main_v5 (ix2 (0 : Fin 1) q) := by
  obtain ⟨-, -, -, -, e20, e21, -⟩ := idx_facts t
  show V m c main_v5 (((cfg0.win 2).blk t).view.emb (ix2 (0 : Fin 1) q)) = V m c main_v5 (ix2 (0 : Fin 1) q)
  refine congrArg (V m c main_v5) (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

/-- Element (p, q) of point t's output block sits at row t·1024 + p of the output array. -/
theorem emb3_at (t : Fin cfg0.N) (p q : Fin 1024) :
    ((cfg0.win 3).blk t).view.emb (ix2 p q) = (ix2 (rowOf t p) q : S32768x1024.Idx) := by
  obtain ⟨-, -, -, -, -, -, e30, e31⟩ := idx_facts t
  refine funext fun a => Fin.ext ?_
  match a with
  | ⟨0, _⟩ => show win0_3.index t (0 : Fin 2) * 1024 + 1 * p.val = t.val * 1024 + p.val; omega
  | ⟨1, _⟩ => show win0_3.index t (1 : Fin 2) * 1024 + 1 * q.val = q.val; omega

/-! ## What a point writes back, the cover, the array -/

/-- WHAT POINT t WRITES BACK is block t of the flattened layer of the arrays the region finds. -/
theorem flushed_eq (c : Dev nD) (t : Fin cfg0.N) :
    (dats m 0 c).flushed 3 t
      = ((cfg0.win 3).blk t).view.read (Elt Ideal) (flat (V m c main_v0) (V m c main_v1) (V m c main_v5)) := by
  show (cfg0.win 3).cut (grid0.coords t) ((dats m 0 c).after 3 t) = _
  rw [after0_3]
  unfold out0_3
  rw [View.canon_unit_zero hz]
  funext j
  obtain ⟨p, q, rfl⟩ : ∃ (p q : Fin 1024), j = ix2 p q := ⟨j 0, j 1, eq_ix2 j⟩
  have hw : ∀ q' : Fin 1024,
      Body.weight (View.ld (iblk m c 0 t) r0_0) (View.ld (iblk m c 0 t) r0_2) (View.ld (iblk m c 0 t) r0_4)
          (View.ld (iblk m c 1 t) r0_1) (View.ld (iblk m c 1 t) r0_3) (View.ld (iblk m c 1 t) r0_5) (View.ld (iblk m c 2 t) r0_6) p q'
        = wt (V m c main_v0) (V m c main_v1) (V m c main_v5) (rowOf t p) q' := fun q' =>
    weight_block (V m c main_v0) (V m c main_v1) (V m c main_v5) (iblk m c 0 t) (iblk m c 1 t) (iblk m c 2 t) (rowOf t)
      (blk0_at m c t) (blk1_at m c t) (blk2_at m c t) p q'
  refine (Body.pay_at (View.ld (iblk m c 0 t) r0_0) (View.ld (iblk m c 0 t) r0_2) (View.ld (iblk m c 0 t) r0_4)
    (View.ld (iblk m c 1 t) r0_1) (View.ld (iblk m c 1 t) r0_3) (View.ld (iblk m c 1 t) r0_5) (View.ld (iblk m c 2 t) r0_6) p q).trans ?_
  rw [hw q, Finset.sum_congr rfl fun k _ => hw k]
  show _ = flat (V m c main_v0) (V m c main_v1) (V m c main_v5) (((cfg0.win 3).blk t).view.emb (ix2 p q))
  rw [emb3_at]
  rfl

/-- An index of the output array is in point t's block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v6).slice (win0_3.rect t)).set ↔ _
  rw [View.set_slice_whole, Rect.mem_set_unit]
  exact Iff.rfl

/-- THE COVER: row r is in the block of point r / 1024. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hlt : (i 0).val / 1024 < grid0.N := by rw [N_0]; omega
  obtain ⟨-, -, -, -, -, -, e30, e31⟩ := idx_facts ⟨(i 0).val / 1024, hlt⟩
  have e30' : win0_3.index ⟨(i 0).val / 1024, hlt⟩ (0 : Fin 2) = (i 0).val / 1024 := e30
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    omega

/-- THE ARRAY after the region: the flattened layer of the arrays the region finds. -/
theorem final (c : Dev nD) :
    (dats m 0 c).arrAt 3 cfg0.N = flat (V m c main_v0) (V m c main_v1) (V m c main_v5) :=
  (dats m 0 c).arrAt_eq_of_cover 3 _ (fun t _ => flushed_eq m c t) cover

end Cert.Rbf.Arr

end
-- ==== Proof.LibFlattenRows.lean ====
/-
  A reshape that merges the two leading axes of a rank-3 array, read at an index given by its coordinates.

  In row-major order the element (i, j, k) of an [a, b, c] array sits at position (i·b + j)·c + k, which is the
  position of (i·b + j, k) in an [a·b, c] array.  So the cast [a, b, c] → [n, c] (n = a·b) reads, at (i·b + j, k),
  the operand at (i, j, k), and the cast back [n, c] → [a, b, c] reads, at (i, j, k), the operand at (i·b + j, k).
  The merged row is passed as its own variable r with the equation r = i·b + j, so that a caller may spell it
  as it meets it.
-/
import Idealize.ShloMosaic.Lib.Pipeline.Value
import Idealize.ShloMosaic.Lib.ValueIdx

noncomputable section

namespace Cert.LibFlattenRows

open Idealize.ShloMosaic Idealize.ShloMosaic.ValueIdx

variable {α : Type}

/-- An `[a, b, c]` array cast to `[n, c]` reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlattenRows

end
-- ==== Proof.KernelHost.lean ====
/-
  The arrays the kernel's region finds, read at an index from the argument arrays.

  Before the region the program flattens the points [8, 4096, 3] to [32768, 3] (row b·4096 + s holds point (b, s)),
  transposes the centres [1024, 3] to [3, 1024], and turns the log-widths l into the row [1, 1024] of width
  factors e^(−2·l[o]).
-/
import proofs.«125963_j83330955477629_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import proofs.«125963_j83330955477629_2_alg».proof.Proof.RbfLaw
import proofs.«125963_j83330955477629_2_alg».proof.Proof.LibFlattenRows

noncomputable section

namespace Cert.Rbf.Host

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The flattened points are the reshape of the first argument. -/
theorem V_points (c : Dev nD) : (V m c main_v0 : S32768x3.Idx → EReal)
    = shapeCast S32768x3 (m ((c : Thread nD τ).loc main_arg0)) shapeCasts_S8x4096x3_S32768x3 := by
  show StableHlo.after hostOps0 (fun b => m (c, b)) (Proc.devRef .tc main_v0) = _
  after_results
  rfl

/-- The transposed centres are the transpose of the second argument. -/
theorem V_centres (c : Dev nD) : (V m c main_v1 : S3x1024.Idx → EReal)
    = transpose S3x1024 [1, 0] (m ((c : Thread nD τ).loc main_arg1)) transposes_S1024x3_S3x1024_1_0 := by
  show StableHlo.after hostOps0 (fun b => m (c, b)) (Proc.devRef .tc main_v1) = _
  after_results

/-- The width factors are e^(−2·l), as a row. -/
theorem V_widths (c : Dev nD) : (V m c main_v5 : S1x1024.Idx → EReal)
    = shapeCast S1x1024 (Host.exp (mulf (broadcastInDim S1024 ![] bcast_S_S1024 (constant (F := Ideal) S_ .f32 0xC0000000#32))
        (m ((c : Thread nD τ).loc main_arg2)))) shapeCasts_S1024_S1x1024 := by
  show StableHlo.after hostOps0 (fun b => m (c, b)) (Proc.devRef .tc main_v5) = _
  after_results
  rfl

/-- Row b·4096 + s of the flattened points is point (b, s). -/
theorem points_at (c : Dev nD) (b : Fin 8) (s : Fin 4096) (k : Fin 3) (r : Fin 32768) (hr : r.val = b.val * 4096 + s.val) :
    V m c main_v0 (ix2 r k) = m ((c : Thread nD τ).loc main_arg0) (ix3 b s k) := by
  rw [V_points]
  exact Cert.LibFlattenRows.shapeCast_abc_nc_apply _ _ b s k r hr

/-- Entry (k, o) of the transposed centres is coordinate k of centre o. -/
theorem centres_at (c : Dev nD) (k : Fin 3) (o : Fin 1024) :
    V m c main_v1 (ix2 k o) = m ((c : Thread nD τ).loc main_arg1) (ix2 o k) := by
  rw [V_centres]
  exact ValueIdx.transpose_ix2_apply _ _ k o

/-- Entry o of the width factors is e^(−2·l[o]). -/
theorem widths_at (c : Dev nD) (u : Fin 1) (o : Fin 1024) :
    V m c main_v5 (ix2 u o) = Ideal.exp (((-2 : ℝ) : EReal) * m ((c : Thread nD τ).loc main_arg2) (ix1 o)) := by
  rw [V_widths, ValueIdx.shapeCast_a_1a_apply]
  show Ideal.exp (Ideal.ofBits .f32 0xC0000000#32 * _) = _
  rw [Cert.Rbf.ofBits_neg_two]

end Cert.Rbf.Host

end
-- ==== Proof.KernelValue.lean ====
/-
  The kernel program's result as a function of its arguments: the normalized layer with the factored exponent.

  After the region the program reshapes the [32768, 1024] output array to [8, 4096, 1024]: entry (b, s, o) is the array's
  entry (b·4096 + s, o).  Row b·4096 + s of the flattened points is point (b, s), the transposed centres hold μ[o, d]
  at (d, o), and the width factors hold e^(−2·l[o]); so the flattened layer's weight of that row at centre o is
  e to the minus the factored exponent of (b, s, o), and the result is that weight over the sum over the centres.
-/
import proofs.«125963_j83330955477629_2_alg».proof.Proof.KernelArray
import proofs.«125963_j83330955477629_2_alg».proof.Proof.KernelHost
import proofs.«125963_j83330955477629_2_alg».proof.Proof.RbfSpec
import proofs.«125963_j83330955477629_2_alg».proof.Proof.LibFlattenRows
import Idealize.ShloMosaic.Lib.StableHlo.Run

noncomputable section

open scoped BigOperators

namespace Cert.Rbf.Kernel

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-- The program's result is the output array, as the region leaves it, reshaped to [8, 4096, 1024]. -/
theorem tail_eq (c : Dev nD) :
    (Pipeline.afterTail₀ cfgs (dats m) 0 (V0 m) [hostOps1] c main_v7 : S8x4096x1024.Idx → EReal)
      = shapeCast S8x4096x1024 (Arr.flat (V m c main_v0) (V m c main_v1) (V m c main_v5))
          shapeCasts_S32768x1024_S8x4096x1024 := by
  have hA := (Pipeline.withArrays_arr spec0 launch0.win.arr_inj c (V0 m c) (fun w => (dats m 0 c).arrAt w cfg0.N) 3).trans
    (Arr.final m c)
  unfold Pipeline.afterTail₀
  show StableHlo.after hostOps1 _ (Proc.devRef .tc main_v7) = _
  after_results
  exact congrArg (fun A : S32768x1024.Idx → EReal => shapeCast S8x4096x1024 A shapeCasts_S32768x1024_S8x4096x1024) hA

/-- The flattened row of point (b, s). -/
def rowFlat (b : Fin 8) (s : Fin 4096) : Fin 32768 := ⟨b.val * 4096 + s.val, by omega⟩

/-- The flattened layer's weight of row b·4096 + s at centre q is e to the minus the factored exponent of (b, s, q). -/
theorem wt_eq (c : Dev nD) (b : Fin 8) (s : Fin 4096) (q : Fin 1024) :
    Arr.wt (V m c main_v0) (V m c main_v1) (V m c main_v5) (rowFlat b s) q
      = Ideal.exp (-(expoFactored (m ((c : Thread nD τ).loc main_arg0)) (m ((c : Thread nD τ).loc main_arg1))
          (m ((c : Thread nD τ).loc main_arg2)) b s q)) := by
  unfold Arr.wt expoFactored
  rw [Host.points_at m c b s (0 : Fin 3) (rowFlat b s) rfl, Host.points_at m c b s (1 : Fin 3) (rowFlat b s) rfl,
    Host.points_at m c b s (2 : Fin 3) (rowFlat b s) rfl, Host.centres_at, Host.centres_at, Host.centres_at, Host.widths_at]

/-- THE KERNEL PROGRAM'S RESULT AT AN INDEX. -/
theorem result_at (c : Dev nD) (b : Fin 8) (s : Fin 4096) (o : Fin 1024) :
    Pipeline.afterTail₀ cfgs (dats m) 0 (V0 m) [hostOps1] c main_v7 (ix3 b s o)
      = normalize (expoFactored (m ((c : Thread nD τ).loc main_arg0)) (m ((c : Thread nD τ).loc main_arg1))
          (m ((c : Thread nD τ).loc main_arg2))) (ix3 b s o) := by
  rw [tail_eq, Cert.LibFlattenRows.shapeCast_nc_abc_apply _ _ b s o (rowFlat b s) rfl]
  show Ideal.div (Arr.wt (V m c main_v0) (V m c main_v1) (V m c main_v5) (rowFlat b s) o)
      (∑ k : Fin 1024, Arr.wt (V m c main_v0) (V m c main_v1) (V m c main_v5) (rowFlat b s) k) = _
  rw [wt_eq m c b s o, Finset.sum_congr rfl fun k _ => wt_eq m c b s k]
  rfl

/-- The kernel program's whole result: the normalized layer with the factored exponent. -/
theorem result_eq (c : Dev nD) :
    (Pipeline.afterTail₀ cfgs (dats m) 0 (V0 m) [hostOps1] c main_v7 : S8x4096x1024.Idx → EReal)
      = normalize (expoFactored (m ((c : Thread nD τ).loc main_arg0)) (m ((c : Thread nD τ).loc main_arg1))
          (m ((c : Thread nD τ).loc main_arg2))) := by
  funext i
  obtain ⟨b, s, o, rfl⟩ : ∃ (b : Fin 8) (s : Fin 4096) (o : Fin 1024), i = ix3 b s o := ⟨i 0, i 1, i 2, eq_ix3 i⟩
  exact result_at m c b s o

/-- THE RUN, READ: every weakly fair execution of the kernel program terminates with its result at the normalized layer
    with the factored exponent of the argument arrays, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v7)
          = normalize (expoFactored (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Rbf.Kernel

end
-- ==== Proof.lean ====
/-
  The normalized Gaussian radial basis layer, kernel against reference, over the extended reals.

  For points x : [8, 4096, 3], centres μ : [1024, 3] and log-widths l : [1024] both programs compute
      y[b, s, o] = e^(−q(b, s, o)) / Σ_o' e^(−q(b, s, o')),
  where q is the squared distance of x[b, s, :] from μ[o, :] in units of the width σ[o] = e^(l[o]).
  The reference scales each coordinate difference by σ before squaring, q = Σ_d ((x_d − μ_d)/σ)²; the kernel flattens
  the points to 32768 rows, handles 1024 rows per grid point, sums the raw squares and multiplies once by the factor
  e^(−2l) computed before the region, q = (Σ_d (x_d − μ_d)²)·e^(−2l), then reshapes its [32768, 1024] output back.
  Both exponents start their sums from 0, the kernel negates by subtracting from 0, and both divide by the row sum;
  none of that distinguishes them.  The two arrangements of q agree when every input is a real number — division by
  the nonzero e^l distributes over the sum and e^(−2l) = (e^l)⁻² — and that is where the precondition (all inputs finite)
  is used: at an infinity the law fails on the extended reals.

  The modules: RbfLaw (the law over coerced reals), RbfSpec (the layer as one function, and the two exponents equal on
  reals), FiniteInputs (the precondition makes every entry a real), RefRead (the reference read at an index),
  KernelBody (the body's payload at an element), KernelHost (the arrays the region finds), KernelArray (from the
  blocks to the output array), KernelValue (the kernel program's result and its run).  The idealization rewrote no
  operation, so the kernel's idealized program is its own text read over the extended reals.
-/
import proofs.«125963_j83330955477629_2_alg».proof.Defs
import proofs.«125963_j83330955477629_2_alg».proof.Proof.Gen.Kernel
import proofs.«125963_j83330955477629_2_alg».proof.Proof.Gen.Kernel.Skeleton
import proofs.«125963_j83330955477629_2_alg».proof.Proof.Gen.Kernel.Launch
import proofs.«125963_j83330955477629_2_alg».proof.Proof.Gen.Kernel.Points
import proofs.«125963_j83330955477629_2_alg».proof.Proof.Gen.Kernel.Frame
import proofs.«125963_j83330955477629_2_alg».proof.Proof.Gen.KernelIdeal
import proofs.«125963_j83330955477629_2_alg».proof.Proof.Gen.KernelIdeal.Skeleton
import proofs.«125963_j83330955477629_2_alg».proof.Proof.Gen.KernelIdeal.Launch
import proofs.«125963_j83330955477629_2_alg».proof.Proof.Gen.KernelIdeal.Points
import proofs.«125963_j83330955477629_2_alg».proof.Proof.Gen.KernelIdeal.Frame
import proofs.«125963_j83330955477629_2_alg».proof.Proof.Gen.ReferenceIdeal
import proofs.«125963_j83330955477629_2_alg».proof.Proof.Gen.ReferenceIdeal.Run
import proofs.«125963_j83330955477629_2_alg».proof.Proof.Gen.ReferenceIdeal.Read
import proofs.«125963_j83330955477629_2_alg».proof.Proof.Gen.Pre_finite_inputs
import proofs.«125963_j83330955477629_2_alg».proof.Proof.FiniteInputs
import proofs.«125963_j83330955477629_2_alg».proof.Proof.RefRead
import proofs.«125963_j83330955477629_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the arguments, all finite, the kernel ends at the normalized layer with the factored exponent
    and the reference at the one with the scaled exponent; on real inputs these are one function. -/
theorem algebraic : Cert.algebraic_KernelIdeal_ReferenceIdeal := by
  intro m ρ m' ρ' hpre hagree
  refine ⟨fun c => Cert.Rbf.normalize (Cert.Rbf.expoFactored
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Rbf.Ref.result_eq, (hagree c).1, (hagree c).2.1, (hagree c).2.2]
  obtain ⟨hX, hM, hL⟩ := Cert.Rbf.real_of_pre _ _ _ (hpre c)
  exact (Cert.Rbf.normalize_factored_eq_scaled _ _ _ hX hM hL).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
